-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  main_v8
-- ==== Kernel.lean ====
abbrev S16777216x1 : Shape := ⟨2, ![16777216, 1]⟩
abbrev S131072x128 : Shape := ⟨2, ![131072, 128]⟩
abbrev S2x1x128 : Shape := ⟨3, ![2, 1, 128]⟩
abbrev S8192x128 : Shape := ⟨2, ![8192, 128]⟩
abbrev S1x1x128 : Shape := ⟨3, ![1, 1, 128]⟩
abbrev S1x128 : Shape := ⟨2, ![1, 128]⟩
abbrev S128 : Shape := ⟨1, ![128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S131072x128, .f32⟩
  | .hbm, ⟨3, _⟩ => ⟨S131072x128, .f32⟩
  | .hbm, ⟨4, _⟩ => ⟨S2x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216x1_S131072x128 : S16777216x1.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x1 : Shape := ⟨2, ![16777216, 1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S_, .f32⟩
  | .hbm, ⟨3, _⟩ => ⟨S16777216x1, .f32⟩
  | .hbm, ⟨4, _⟩ => ⟨S16777216x1, .f32⟩
  | .hbm, ⟨5, _⟩ => ⟨S16777216x1, .i1⟩
  | .hbm, ⟨6, _⟩ => ⟨S_, .f32⟩
  | .hbm, ⟨7, _⟩ => ⟨S16777216x1, .f32⟩
  | .hbm, ⟨8, _⟩ => ⟨S16777216x1, .f32⟩
  | .hbm, ⟨9, _⟩ => ⟨S16777216x1, .i1⟩
  | .hbm, ⟨10, _⟩ => ⟨S16777216x1, .i1⟩
  | .hbm, ⟨11, _⟩ => ⟨S16777216x1, .f32⟩
  | .hbm, ⟨12, _⟩ => ⟨S16777216x1, .f32⟩
  | .hbm, ⟨13, _⟩ => ⟨S16777216x1, .f32⟩
  | .hbm, ⟨14, _⟩ => ⟨S16777216x1, .f32⟩
  | .hbm, ⟨15, _⟩ => ⟨S16777216x1, .f32⟩
  | .hbm, ⟨16, _⟩ => ⟨S16777216x1, .f32⟩
  | .hbm, ⟨17, _⟩ => ⟨S16777216x1, .f32⟩
  | .hbm, ⟨18, _⟩ => ⟨S16777216x1, .f32⟩
  | .hbm, ⟨19, _⟩ => ⟨S_, .f32⟩
  | .hbm, ⟨20, _⟩ => ⟨S16777216x1, .f32⟩
  | .hbm, ⟨21, _⟩ => ⟨S16777216x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts₀]

class Facts : Prop extends Facts₀ where

variable [Facts]
-- ==== Proof.Pieces.lean ====
/-
  What one grid step leaves behind, as values. The body keeps a [1,128] running row in a scratch buffer: at the
  first step of a core's eight it stores the zero row, reads it back, and stores the step's update of it; at
  every other step it stores the update of the row the step before left; at the last of the eight it also copies
  the row, re-laid as [1,1,128], into the output block. Each case's stores are read back here as ONE pure term of
  the two input blocks and the row found: the update is the payload `k0_pay2`, the zero row `k0_pay1`, the copy
  `k0_pay3`. Every store covers its whole buffer, so the buffer's contents are the last store's payload, and a
  load after a covering store reads that store's payload.
-/
import proofs.«110617_j6150393167991_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the running row `xs0` becomes its update by the two input blocks. -/
theorem sout_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S8192x128 .f32) (x1 : Vec F S8192x128 .f32) (xs0 : Vec F S1x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S8192x128) hz2, View.ld_unit_zero (S := S1x128) hz2]

/-- The last step of a core's eight: the running row is updated as at a middle step, -/
theorem sout_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S8192x128 .f32) (x1 : Vec F S8192x128 .f32) (xs0 : Vec F S1x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8192x128) hz2, View.ld_unit_zero (S := S1x128) hz2]

/-- and the output block receives that updated row, re-laid as [1,1,128]. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S8192x128 .f32) (x1 : Vec F S8192x128 .f32) (xs0 : Vec F S1x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread, View.ld_unit_zero (S := S8192x128) hz2, View.ld_unit_zero (S := S1x128) hz2]

/-- The first step of a core's eight: the running row starts from the zero row. -/
theorem sout_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, View.ld_unit_zero (S := S8192x128) hz2]

end Cert.KernelIdeal.Pieces

end
-- ==== Proof.Payload.lean ====
/-
  The three payloads of the kernel body read at an index, at the ideal values. The update of the running [1,128]
  row adds, lane by lane, the scaled sum over the 8192 rows of the two input blocks of one element loss: the row
  reduction is a plain sum over the rows, the casts between [128], [1,128] and [1,1,128] only rename the index,
  and every other operation is pointwise.
-/
import proofs.«110617_j6150393167991_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- One element's loss as the kernel computes it: zero where the prediction, scaled by the two thresholds, brackets the
    target; elsewhere the squared error plus the squared error of the logarithms. -/
def elem (p t : EReal) : EReal :=
  Scalar.select (IntOp.andi (Ideal.cmp .ogt (p * Ideal.ofBits .f32 0x3F866666#32) t) (Ideal.cmp .olt (p * Ideal.ofBits .f32 0x3F733333#32) t))
    (Ideal.ofBits .f32 0x00000000#32) ((p - t) * (p - t) + (Ideal.log p - Ideal.log t) * (Ideal.log p - Ideal.log t))

/-- Summing a [8192,128] block along its rows: the index that reduces to lane `l`, with row `k` put back, is `(k, l)`. -/
theorem lift_eq (l : Fin 128) (k : Fin 8192) : reduces_S8192x128_S128.lift (ix1 l) k = ix2 k l :=
  funext fun a => match a with | ⟨0, _⟩ => rfl | ⟨1, _⟩ => rfl

/-- The update of the running row, lane by lane: the row found plus the lane's sum over the block's 8192 rows of the
    element losses, scaled by the constant the kernel spells. -/
theorem pay2_apply (x0 x1 : Vec Ideal S8192x128 .f32) (acc : Vec Ideal S1x128 .f32) (u : Fin 1) (l : Fin 128) :
    k0_pay2 (F := Ideal) x0 x1 acc (ix2 u l)
      = acc (ix2 u l) + (∑ r : Fin 8192, elem (x0 (ix2 r l)) (x1 (ix2 r l))) * Ideal.ofBits .f32 0x33800000#32 := by
  unfold k0_pay2
  dsimp only
  simp only [shapeCast_self]
  rw [addf_apply, mulf_apply, broadcast_apply]
  refine congrArg₂ (· + ·) rfl (congrArg₂ (· * ·) ?_ rfl)
  refine (shapeCast_a_1a_apply _ shapeCasts_S128_S1x128 u l).trans ?_
  refine (Ideal.multiReduction_add_single _ _ _ _ _ (ix1 l)).trans ?_
  show ∑ r : Fin 8192, _ = _
  refine Finset.sum_congr rfl fun r _ => ?_
  rw [lift_eq]
  rfl

/-- The zero row. -/
theorem pay1_apply (u : Fin 1) (l : Fin 128) : k0_pay1 (F := Ideal) (ix2 u l) = Ideal.ofBits .f32 0x00000000#32 := by
  unfold k0_pay1
  simp only [shapeCast_self]
  rfl

/-- The copy into the output block: `(0, 0, l)` of the [1,1,128] block is lane `l` of the row. -/
theorem pay3_apply (v : Vec Ideal S1x128 .f32) (a u : Fin 1) (l : Fin 128) :
    k0_pay3 (F := Ideal) v (ix3 a u l) = v (ix2 u l) := by
  unfold k0_pay3
  exact shapeCast_ab_1ab_apply v shapeCasts_S1x128_S1x1x128 a u l

end Cert.KernelIdeal.Payload
end
-- ==== Proof.Accum.lean ====
/-
  The running row, point by point. The sixteen grid points are two cores' eight steps each. The row restarts from
  zero at a core's first step and every step adds its block's scaled lane sums, so after point `n` lane `l` holds
  the sum of the scaled tile sums of the points of `n`'s core up to `n` — an induction on the point —, and at a
  core's last step the output block receives the sum of all eight.
-/
import proofs.«110617_j6150393167991_2_alg».proof.Proof.Pieces
import proofs.«110617_j6150393167991_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payload

section AnyValues

variable {F : FTy → Type} [FloatOps F]
variable (m : (ℓ : Loc nD τ sig) → Buf (Elt F) ℓ)

/-- At the first of a core's eight steps the running row is the update of the zero row by the step's two blocks. -/
theorem row_first (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  rw [outsAt0_A m c t h0 h1]
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At every other step it is the update of the row the step before left. -/
theorem row_next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    exact sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _
  · rw [outsAt0_B m c t h0 h1]
    exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

/-- At the last of a core's eight steps the output block receives the row the step leaves, re-laid. -/
theorem out_last (c : Dev nD) (t : Fin cfg0.N) (h1 : t.val % 8 = 7) :
    (outsAt0 m c t.val t.isLt).1 = k0_pay3 ((outsAt0 m c t.val t.isLt).2) := by
  have h0 : ¬t.val % 8 = 0 := by omega
  rw [outsAt0_C m c t h0 h1]
  dsimp only
  rw [out_C, sout_C]

end AnyValues

section IdealValues

variable (m : (ℓ : Loc nD τ sig) → Buf (Elt Ideal) ℓ)

/-- The scaled sum, over the 8192 rows of point `t`'s two input blocks, of the element losses in lane `l`. -/
def tile (c : Dev nD) (t : Fin cfg0.N) (l : Fin 128) : EReal :=
  (∑ r : Fin 8192, elem ((iblk m c 0 t : Vec Ideal S8192x128 .f32) (ix2 r l)) ((iblk m c 1 t : Vec Ideal S8192x128 .f32) (ix2 r l)))
    * Ideal.ofBits .f32 0x33800000#32

/-- The same over every natural number (zero past the grid), so that sums over ranges of points can be written. -/
def tileN (c : Dev nD) (n : ℕ) (l : Fin 128) : EReal := if h : n < cfg0.N then tile m c ⟨n, h⟩ l else 0

theorem tileN_of_lt (c : Dev nD) (n : ℕ) (h : n < cfg0.N) (l : Fin 128) : tileN m c n l = tile m c ⟨n, h⟩ l := dif_pos h

theorem first_apply (c : Dev nD) (t : Fin cfg0.N) (h0 : t.val % 8 = 0) (u : Fin 1) (l : Fin 128) :
    (outsAt0 m c t.val t.isLt).2 (ix2 u l) = tile m c t l := by
  rw [row_first m c t h0]
  refine (pay2_apply (iblk m c 0 t) (iblk m c 1 t) (k0_pay1 (F := Ideal)) u l).trans ?_
  rw [pay1_apply, Ideal.ofBits_zero_f32, zero_add]
  rfl

theorem next_apply (c : Dev nD) (t : Fin cfg0.N) (h0 : ¬t.val % 8 = 0) (u : Fin 1) (l : Fin 128) :
    (outsAt0 m c t.val t.isLt).2 (ix2 u l)
      = (outsAt0 m c (t.val - 1) (Nat.lt_of_le_of_lt (Nat.sub_le _ _) t.isLt)).2 (ix2 u l) + tile m c t l := by
  rw [row_next m c t h0]
  exact pay2_apply (iblk m c 0 t) (iblk m c 1 t) _ u l

/-- After point `n` the running row holds, in lane `l`, the sum of the scaled tile sums of the points of `n`'s core
    from its first step up to `n`: the row restarts from zero every eight points. -/
theorem row_eq (c : Dev nD) : ∀ (n : ℕ) (hn : n < cfg0.N) (u : Fin 1) (l : Fin 128),
    (outsAt0 m c n hn).2 (ix2 u l) = ∑ i ∈ Finset.range (n % 8 + 1), tileN m c (n - n % 8 + i) l := by
  intro n
  induction n with
  | zero =>
    intro hn u l
    rw [first_apply m c ⟨0, hn⟩ rfl u l]
    simp only [Nat.zero_mod, Nat.sub_zero, Nat.zero_add, Finset.sum_range_one]
    exact (tileN_of_lt m c 0 hn l).symm
  | succ n ih =>
    intro hn u l
    by_cases h0 : (n + 1) % 8 = 0
    · rw [first_apply m c ⟨n + 1, hn⟩ h0 u l]
      simp only [h0, Nat.sub_zero, Nat.zero_add, Nat.add_zero, Finset.sum_range_one]
      exact (tileN_of_lt m c (n + 1) hn l).symm
    · rw [next_apply m c ⟨n + 1, hn⟩ h0 u l]
      show (outsAt0 m c n _).2 (ix2 u l) + _ = _
      rw [ih (Nat.lt_of_succ_lt hn) u l]
      have e1 : (n + 1) % 8 = n % 8 + 1 := by omega
      have e2 : n + 1 - (n % 8 + 1) = n - n % 8 := by omega
      have e3 : n - n % 8 + (n % 8 + 1) = n + 1 := by omega
      rw [e1, e2, Finset.sum_range_succ (fun i => tileN m c (n - n % 8 + i) l) (n % 8 + 1), e3, tileN_of_lt m c (n + 1) hn l]

/-- So after the last step of core `k` (point `8k + 7`) the output block holds, in lane `l`, the sum of the core's eight
    scaled tile sums. -/
theorem out_apply (c : Dev nD) (t : Fin cfg0.N) (h1 : t.val % 8 = 7) (a u : Fin 1) (l : Fin 128) :
    (outsAt0 m c t.val t.isLt).1 (ix3 a u l) = ∑ i ∈ Finset.range 8, tileN m c (t.val - 7 + i) l := by
  rw [out_last m c t h1]
  refine (pay3_apply _ a u l).trans ?_
  rw [row_eq m c t.val t.isLt u l, h1]

end IdealValues

end Cert.KernelIdeal.Accum
end
-- ==== Proof.Blocks.lean ====
/-
  From blocks to the array. The host re-lays each [16777216,1] argument as [131072,128] before the call; point `t`
  of the grid reads rows `8192 t … 8192 t + 8191` of both, so row `r`, lane `l` of its blocks is the arguments'
  flat entry `(8192 t + r) · 128 + l`. The [2,1,128] result is written back twice, block `(k, 0, 0)` after core
  `k`'s last step; the two blocks cover it, so the array ends holding one function `G` of the arguments: at
  `(k, 0, l)` the sum over the core's eight steps of the scaled sums over each step's rows of the element losses.
-/
import proofs.«110617_j6150393167991_2_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Payload Cert.KernelIdeal.Accum

variable (m : (ℓ : Loc nD τ sig) → Buf (Elt Ideal) ℓ)

/-- The printed index maps over the sixteen points: an input block's row-block index is the point's number, the output
    block's leading index the point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- A [16777216,1] array re-laid as [131072,128]: entry `(R, l)` is the flat entry `128 R + l`. -/
theorem reshape_apply (x : S16777216x1.Idx → EReal) (R : Fin 131072) (l : Fin 128) (j : Fin 16777216)
    (hj : j.val = R.val * 128 + l.val) :
    shapeCast S131072x128 x shapeCasts_S16777216x1_S131072x128 (ix2 R l) = x (ix2 j (0 : Fin 1)) :=
  shapeCast_apply x shapeCasts_S16777216x1_S131072x128 _ _ (by
    rw [Shape.rowMajor_val_two, Shape.rowMajor_val_two]
    show j.val * 1 + 0 = R.val * 128 + l.val
    omega)

/-- The region finds, in the buffer the first window stages, the first argument re-laid (the host line before it). -/
theorem V_v0 (c : Dev nD) : (V m c main_v0 : S131072x128.Idx → EReal)
    = shapeCast S131072x128 (m ((c : Thread nD τ).loc main_arg0)) shapeCasts_S16777216x1_S131072x128 := by
  show StableHlo.after hostOps0 (fun b => m (c, b)) (Proc.devRef .tc main_v0) = _
  after_results
  rfl

/-- Likewise the second. -/
theorem V_v1 (c : Dev nD) : (V m c main_v1 : S131072x128.Idx → EReal)
    = shapeCast S131072x128 (m ((c : Thread nD τ).loc main_arg1)) shapeCasts_S16777216x1_S131072x128 := by
  show StableHlo.after hostOps0 (fun b => m (c, b)) (Proc.devRef .tc main_v1) = _
  after_results
  rfl

theorem row_lt (t : Fin cfg0.N) (r : Fin 8192) : t.val * 8192 + r.val < 131072 := by
  have hN : t.val < 16 := lt_of_lt_of_eq t.isLt (show cfg0.N = 16 from N_0)
  have := r.isLt; omega

theorem flat_lt (t : Fin cfg0.N) (r : Fin 8192) (l : Fin 128) : (t.val * 8192 + r.val) * 128 + l.val < 16777216 := by
  have hN : t.val < 16 := lt_of_lt_of_eq t.isLt (show cfg0.N = 16 from N_0)
  have := r.isLt; have := l.isLt; omega

/-- Row `r`, lane `l` of point `t`'s input block sits at row `8192 t + r`, lane `l` of the re-laid array. -/
theorem emb0 (t : Fin cfg0.N) (r : Fin 8192) (l : Fin 128) :
    ((cfg0.win 0).blk t).view.emb (ix2 r l) = ix2 (⟨t.val * 8192 + r.val, row_lt t r⟩ : Fin 131072) l := by
  obtain ⟨e0, e1, -, -, -, -, -⟩ := idx_facts t
  funext a; apply Fin.ext
  match a with
  | ⟨0, _⟩ => show win0_0.index t (0 : Fin 2) * 8192 + 1 * r.val = t.val * 8192 + r.val; rw [e0]; omega
  | ⟨1, _⟩ => show win0_0.index t (1 : Fin 2) * 128 + 1 * l.val = l.val; rw [e1]; omega

theorem emb1 (t : Fin cfg0.N) (r : Fin 8192) (l : Fin 128) :
    ((cfg0.win 1).blk t).view.emb (ix2 r l) = ix2 (⟨t.val * 8192 + r.val, row_lt t r⟩ : Fin 131072) l := by
  obtain ⟨-, -, e0, e1, -, -, -⟩ := idx_facts t
  funext a; apply Fin.ext
  match a with
  | ⟨0, _⟩ => show win0_1.index t (0 : Fin 2) * 8192 + 1 * r.val = t.val * 8192 + r.val; rw [e0]; omega
  | ⟨1, _⟩ => show win0_1.index t (1 : Fin 2) * 128 + 1 * l.val = l.val; rw [e1]; omega

/-- Row `r`, lane `l` of point `t`'s block of the first input is the first argument's flat entry
    `(8192 t + r) · 128 + l`. -/
theorem blk0_apply (c : Dev nD) (t : Fin cfg0.N) (r : Fin 8192) (l : Fin 128) :
    (iblk m c 0 t : Vec Ideal S8192x128 .f32) (ix2 r l)
      = m ((c : Thread nD τ).loc main_arg0) (ix2 ⟨(t.val * 8192 + r.val) * 128 + l.val, flat_lt t r l⟩ (0 : Fin 1)) := by
  unfold iblk
  rw [View.read_apply]
  show V m c main_v0 (((cfg0.win 0).blk t).view.emb (ix2 r l)) = _
  refine (congrArg (V m c main_v0) (emb0 t r l)).trans ?_
  refine (congrFun (V_v0 m c) _).trans ?_
  exact reshape_apply (m ((c : Thread nD τ).loc main_arg0)) ⟨t.val * 8192 + r.val, row_lt t r⟩ l
    ⟨(t.val * 8192 + r.val) * 128 + l.val, flat_lt t r l⟩ rfl

/-- Likewise the second input. -/
theorem blk1_apply (c : Dev nD) (t : Fin cfg0.N) (r : Fin 8192) (l : Fin 128) :
    (iblk m c 1 t : Vec Ideal S8192x128 .f32) (ix2 r l)
      = m ((c : Thread nD τ).loc main_arg1) (ix2 ⟨(t.val * 8192 + r.val) * 128 + l.val, flat_lt t r l⟩ (0 : Fin 1)) := by
  unfold iblk
  rw [View.read_apply]
  show V m c main_v1 (((cfg0.win 1).blk t).view.emb (ix2 r l)) = _
  refine (congrArg (V m c main_v1) (emb1 t r l)).trans ?_
  refine (congrFun (V_v1 m c) _).trans ?_
  exact reshape_apply (m ((c : Thread nD τ).loc main_arg1)) ⟨t.val * 8192 + r.val, row_lt t r⟩ l
    ⟨(t.val * 8192 + r.val) * 128 + l.val, flat_lt t r l⟩ rfl

/-- The element loss at flat index `j` of the two argument arrays (zero past the arrays' length). -/
def g (c : Dev nD) (j : ℕ) : EReal :=
  if h : j < 16777216 then
    elem (m ((c : Thread nD τ).loc main_arg0) (ix2 ⟨j, h⟩ (0 : Fin 1))) (m ((c : Thread nD τ).loc main_arg1) (ix2 ⟨j, h⟩ (0 : Fin 1)))
  else 0

/-- A point's scaled tile sum in lane `l`, over the flat index: rows `8192 t … 8192 t + 8191` of the re-laid arrays. -/
theorem tile_flat (c : Dev nD) (t : Fin cfg0.N) (l : Fin 128) :
    tile m c t l = (∑ r : Fin 8192, g m c ((t.val * 8192 + r.val) * 128 + l.val)) * Ideal.ofBits .f32 0x33800000#32 := by
  unfold tile
  refine congrArg (· * Ideal.ofBits .f32 0x33800000#32) (Finset.sum_congr rfl fun r _ => ?_)
  rw [blk0_apply m c t r l, blk1_apply m c t r l]
  unfold g
  rw [dif_pos (flat_lt t r l)]

theorem tileN_flat (c : Dev nD) (n : ℕ) (hn : n < 16) (l : Fin 128) :
    tileN m c n l = (∑ r : Fin 8192, g m c ((n * 8192 + r.val) * 128 + l.val)) * Ideal.ofBits .f32 0x33800000#32 := by
  have h : n < cfg0.N := lt_of_lt_of_eq hn (show 16 = cfg0.N from N_0.symm)
  rw [tileN_of_lt m c n h l, tile_flat m c ⟨n, h⟩ l]

/-- What the [2,1,128] result array ends holding: at `(k, 0, l)` the sum over core `k`'s eight steps of the scaled sums
    over each step's 8192 rows of the element losses in lane `l`. -/
def G (c : Dev nD) : S2x1x128.Idx → EReal := fun q =>
  ∑ i ∈ Finset.range 8,
    (∑ r : Fin 8192, g m c (((8 * (q 0).val + i) * 8192 + r.val) * 128 + (q 2).val)) * Ideal.ofBits .f32 0x33800000#32

/-- The output block after a core's last step, entry by entry, is `G` at the matching entry of the array. -/
theorem out_flat (c : Dev nD) (t : Fin cfg0.N) (h7 : t.val % 8 = 7) (y : S1x1x128.Idx) (q : S2x1x128.Idx)
    (hq0 : (q 0).val = t.val / 8) (hq2 : (q 2).val = (y 2).val) :
    (outsAt0 m c t.val t.isLt).1 y = G m c q := by
  have hN : t.val < 16 := lt_of_lt_of_eq t.isLt (show cfg0.N = 16 from N_0)
  obtain ⟨a, u, l, rfl⟩ : ∃ (a u : Fin 1) (l : Fin 128), y = ix3 a u l := ⟨y 0, y 1, y 2, eq_ix3 y⟩
  have hq2' : (q 2).val = l.val := hq2
  rw [out_apply m c t h7 a u l]
  unfold G
  refine Finset.sum_congr rfl fun i hi => ?_
  have hi8 : i < 8 := Finset.mem_range.mp hi
  rw [tileN_flat m c (t.val - 7 + i) (by omega) l, hq0, hq2']
  have e : 8 * (t.val / 8) + i = t.val - 7 + i := by omega
  rw [e]

/-- Point `t` writes back block `t` of `G`. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  obtain ⟨-, -, -, -, e0, e1, e2⟩ := idx_facts t
  show (cfg0.win 2).cut (grid0.coords t) ((dats m 0 c).after 2 t) = _
  rw [after0_2]
  funext y
  rw [View.read_apply]
  refine out_flat m c t h7 y _ ?_ ?_
  · show win0_2.index t (0 : Fin 3) * 1 + 1 * (y 0).val = t.val / 8
    have hy : (y 0).val < 1 := (y 0).isLt
    rw [e0]; omega
  · show win0_2.index t (2 : Fin 3) * 128 + 1 * (y 2).val = (y 2).val
    rw [e2]; omega

/-- An index of the array is in point `t`'s block iff each coordinate is in the block's range on its axis. -/
theorem mem_blk (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- The two cores' last steps cover the array, so it ends holding `G`. -/
theorem final (c : Dev nD) : (dats m 0 c).arrAt 2 cfg0.N = G m c :=
  (dats m 0 c).arrAt_eq_of_cover 2 (G m c) (flushed_eq m c) fun (i : S2x1x128.Idx) => by
    have hi0 : (i 0).val < 2 := (i 0).isLt
    have hi1 : (i 1).val < 1 := (i 1).isLt
    have hi2 : (i 2).val < 128 := (i 2).isLt
    have hN : 8 * (i 0).val + 7 < cfg0.N := by rw [show cfg0.N = 16 from N_0]; omega
    obtain ⟨-, -, -, -, e0, e1, e2⟩ := idx_facts ⟨8 * (i 0).val + 7, hN⟩
    have e0' : win0_2.index ⟨8 * (i 0).val + 7, hN⟩ (0 : Fin 3) = (i 0).val := by rw [e0]; show (8 * (i 0).val + 7) / 8 = (i 0).val; omega
    refine ⟨⟨8 * (i 0).val + 7, hN⟩, (flush0_2 _).mpr (by show (8 * (i 0).val + 7) % 8 = 7; omega), ?_⟩
    rw [mem_blk]
    intro a
    match a with
    | ⟨0, _⟩ => show win0_2.index ⟨8 * (i 0).val + 7, hN⟩ (0 : Fin 3) * 1 ≤ (i 0).val ∧ (i 0).val < win0_2.index ⟨8 * (i 0).val + 7, hN⟩ (0 : Fin 3) * 1 + 1; rw [e0']; omega
    | ⟨1, _⟩ => show win0_2.index ⟨8 * (i 0).val + 7, hN⟩ (1 : Fin 3) * 1 ≤ (i 1).val ∧ (i 1).val < win0_2.index ⟨8 * (i 0).val + 7, hN⟩ (1 : Fin 3) * 1 + 1; rw [e1]; omega
    | ⟨2, _⟩ => show win0_2.index ⟨8 * (i 0).val + 7, hN⟩ (2 : Fin 3) * 128 ≤ (i 2).val ∧ (i 2).val < win0_2.index ⟨8 * (i 0).val + 7, hN⟩ (2 : Fin 3) * 128 + 128; rw [e2]; omega

end Cert.KernelIdeal.Blocks
end
-- ==== Proof.Tail.lean ====
/-
  The host lines after the call, and the kernel program's run read as a value. After the call the host sums the
  [2,1,128] array from zero and divides by a constant; the call leaves `G` of the arguments in that array, so
  the program's result is that tail of `G`.
-/
import proofs.«110617_j6150393167991_2_alg».proof.Proof.Blocks
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Blocks

variable (m : (ℓ : Loc nD τ sig) → Buf (Elt Ideal) ℓ) (ρ : Dev nD → PrngReg)

/-- The host lines after the call, as one function of the [2,1,128] array: the sum of all its entries from zero,
    divided by the constant the program spells. -/
def tail (x : S2x1x128.Idx → EReal) : S_.Idx → EReal :=
  Host.divf (F := Ideal) (Host.reduceAdd (F := Ideal) x (constant (F := Ideal) S_ .f32 0x00000000#32) reducesTo_S2x1x128_S_d0_1_2 h_S_)
    (constant (F := Ideal) S_ .f32 0x4B800000#32)

/-- The program's result: the tail of the array the call leaves. -/
theorem tail_eq (c : Dev nD) :
    Pipeline.afterTail₀ cfgs (dats m) 0 (V0 m) [hostOps1] c main_v4 = tail (G m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = G m c :=
    (Pipeline.withArrays_arr spec0 launch0.win.arr_inj c _ _ 2).trans (final m c)
  unfold tail
  rw [e]

/-- The kernel's run, read: its result is the tail of `G` of the argument arrays, which end unchanged. -/
theorem run : θ_run defs (onTc (τ := τ) (main (F := Ideal))) ⟨m, fun _ => 0, ρ⟩ fun r => ∀ c : Dev nD,
      r.2.mem ((c.tc : Thread nD τ).loc main_v4) = tail (G m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Tail
end
-- ==== Proof.Finite.lean ====
/-
  The precondition read: every entry of both argument arrays is a real number. The precondition is the conjunction,
  over both arrays, of "every entry's absolute value is below +∞"; a conjunction over all entries that is true is
  true at each entry, and an extended real whose absolute value is below +∞ is neither infinity.
-/
import proofs.«110617_j6150393167991_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Pre_finite_inputs.Finite

open Cert.Pre_finite_inputs

variable [Cert.Pre_finite_inputs.Facts]
open Cert.Pre_finite_inputs.Facts

instance : Subsingleton S_.Idx := ⟨fun a b => funext fun d => d.elim0⟩

/-- The pattern of +∞ denotes the top element. -/
theorem ofBits_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ p : ℝ, x = (p : EReal) := by
  rw [ofBits_inf] at h
  have hlt : max x (-x) < ⊤ := by
    by_contra hn
    have : Ideal.cmp .olt (max x (-x)) ⊤ = 0#1 := by
      unfold Ideal.cmp
      simp only [hn, decide_false]
      rfl
    rw [this] at h
    exact absurd h (by decide)
  induction x using EReal.rec with
  | bot => exact absurd hlt (by simp)
  | coe r => exact ⟨r, rfl⟩
  | top => exact absurd hlt (by simp)

/-- One array's half of the precondition, at an entry. -/
theorem entry_real (x : FVec Ideal S16777216x1 .f32) (init : S_.Idx → BitVec 1)
    (h : Host.reduce IntOp.andi (cmpf .olt (Host.absf x) (broadcastInDim S16777216x1 ![] bcast_S_S16777216x1 (constant (F := Ideal) S_ .f32 0x7F800000#32))) init reducesTo_S16777216x1_S_d0_1 h_S_ ix0 = 1#1)
    (j : S16777216x1.Idx) : ∃ p : ℝ, x j = (p : EReal) := by
  have e := Host.reduce_andi_all _ init reducesTo_S16777216x1_S_d0_1 h_S_ ix0 h j
  refine real_of_abs_lt (x j) ?_
  rw [cmpf_apply] at e
  rw [broadcastInDim_apply _ bcast_S_S16777216x1 (constant (F := Ideal) S_ .f32 0x7F800000#32) j ix0 (fun a => a.elim0)] at e
  exact e

/-- The precondition makes every entry of both arrays a real. -/
theorem finite (x0 x1 : FVec Ideal S16777216x1 .f32) (h : fn (F := Ideal) x0 x1 = fun _ => 1#1) :
    (∀ j, ∃ p : ℝ, x0 j = (p : EReal)) ∧ (∀ j, ∃ p : ℝ, x1 j = (p : EReal)) := by
  have h0 := congrFun h ix0
  dsimp only [fn] at h0
  obtain ⟨ha, hb⟩ := IntOp.andi_eq_one.mp h0
  exact ⟨entry_real x0 _ ha, entry_real x1 _ hb⟩

end Cert.Pre_finite_inputs.Finite

end
-- ==== Proof.Elem.lean ====
/-
  The constants and the element term of the masked loss, at the extended reals.

  The float patterns the two programs spell denote the reals `0`, `2^24`, `2^-24`,
  `8808038 / 2^23` (about 1.05) and `15938355 / 2^24` (about 0.95).  Dividing by `2^24`
  is multiplying by `2^-24`, at the infinities too.  Inside the range the kernel writes
  `0` while the reference replaces the target by the prediction and so computes
  `(p - p)² + (log p - log p)²`; the two agree because the range condition
  `p·lo < t < p·hi` with `lo < hi` forces `0 < p`, which makes `log p` a real.
-/
import Mathlib
import Idealize.ShloMosaic.PureOps.Ideal
import Idealize.ShloMosaic.PureOps.Ideal.Laws

open Idealize.ShloMosaic

namespace RangeLoss

noncomputable section

/-- The pattern `+0.0` denotes `0`. -/
theorem ofBits_zero : Ideal.ofBits .f32 0x00000000#32 = 0 := Ideal.ofBits_zero_f32

/-- The pattern `0x4B800000` denotes `2^24 = 16777216`. -/
theorem ofBits_n : Ideal.ofBits .f32 0x4B800000#32 = ((16777216 : ℝ) : EReal) := by
  simp [Ideal.ofBits, Ideal.ieee, -EReal.coe_mul]; norm_num

/-- The pattern `0x33800000` denotes `2^-24 = 1 / 16777216`. -/
theorem ofBits_inv_n : Ideal.ofBits .f32 0x33800000#32 = ((1 / 16777216 : ℝ) : EReal) := by
  simp [Ideal.ofBits, Ideal.ieee, -EReal.coe_mul]; norm_num

/-- The upper threshold's pattern `0x3F866666` denotes `8808038 / 2^23`. -/
theorem ofBits_hi : Ideal.ofBits .f32 0x3F866666#32 = ((8808038 / 8388608 : ℝ) : EReal) := by
  simp [Ideal.ofBits, Ideal.ieee, -EReal.coe_mul]; norm_num

/-- The lower threshold's pattern `0x3F733333` denotes `15938355 / 2^24`. -/
theorem ofBits_lo : Ideal.ofBits .f32 0x3F733333#32 = ((15938355 / 16777216 : ℝ) : EReal) := by
  simp [Ideal.ofBits, Ideal.ieee, -EReal.coe_mul]; norm_num

/-- Dividing by `2^24` is multiplying by `2^-24`, for every extended real. -/
theorem div_n (x : EReal) :
    Ideal.div x (Ideal.ofBits .f32 0x4B800000#32) = x * Ideal.ofBits .f32 0x33800000#32 := by
  rw [ofBits_n, ofBits_inv_n]
  exact Ideal.div_coe (by norm_num) x

/-- The scale `2^-24` is a nonnegative real. -/
theorem inv_n_nonneg : ∃ c : ℝ, 0 ≤ c ∧ Ideal.ofBits .f32 0x33800000#32 = (c : EReal) :=
  ⟨1 / 16777216, by norm_num, ofBits_inv_n⟩

/-- the mask both programs compute: p·hi > t and p·lo < t -/
def inRange (p t : EReal) : BitVec 1 :=
  IntOp.andi (Ideal.cmp .ogt (p * Ideal.ofBits .f32 0x3F866666#32) t) (Ideal.cmp .olt (p * Ideal.ofBits .f32 0x3F733333#32) t)

/-- the kernel's element term: zero inside the range, the two squared errors outside -/
def kelem (p t : EReal) : EReal :=
  Scalar.select (inRange p t) (Ideal.ofBits .f32 0x00000000#32)
    ((p - t) * (p - t) + (Ideal.log p - Ideal.log t) * (Ideal.log p - Ideal.log t))

/-- the reference's element term: the target replaced by the prediction inside the range -/
def relem (p t : EReal) : EReal :=
  (p - Scalar.select (inRange p t) p t) * (p - Scalar.select (inRange p t) p t)
    + (Ideal.log p - Ideal.log (Scalar.select (inRange p t) p t)) * (Ideal.log p - Ideal.log (Scalar.select (inRange p t) p t))

/-- The conjunction of two one-bit truth values is `1` only if both are true. -/
theorem and_ofBool_eq_one (a b : Bool) (h : BitVec.ofBool a &&& BitVec.ofBool b = 1) :
    a = true ∧ b = true := by
  revert h; revert a b; decide

/-- Inside the range the prediction is positive: `p·lo < t < p·hi` with `lo < hi`. -/
theorem pos_of_inRange (p t : ℝ) (h : inRange (p : EReal) (t : EReal) = 1) : 0 < p := by
  have h2 := and_ofBool_eq_one _ _ h
  rw [ofBits_hi, ofBits_lo] at h2
  simp only [decide_eq_true_eq, ← EReal.coe_mul, EReal.coe_lt_coe_iff] at h2
  obtain ⟨h_hi, h_lo⟩ := h2
  linarith

/-- On real inputs the two programs' element terms agree: outside the range they are the same expression, inside it
the reference's two differences are `p - p` and `log p - log p` with `log p` a real. -/
theorem relem_eq_kelem (p t : ℝ) : relem (p : EReal) (t : EReal) = kelem (p : EReal) (t : EReal) := by
  unfold relem kelem
  by_cases h : inRange (p : EReal) (t : EReal) = 1
  · have hp : 0 < p := pos_of_inRange p t h
    simp only [Scalar.select, if_pos h]
    rw [ofBits_zero, Ideal.log_coe, if_neg (not_le.mpr hp), ← EReal.coe_sub, ← EReal.coe_sub,
      sub_self, sub_self, EReal.coe_zero, mul_zero, add_zero]
  · simp only [Scalar.select, if_neg h]

end

end RangeLoss
-- ==== Proof.LibScale.lean ====
/-
  Scaling an extended real by a nonnegative real commutes with finite sums.

  Multiplication of extended reals does not distribute over addition in
  general (the sum `⊤ + ⊥` is `⊥`), but it does when the factor is a
  nonnegative finite real: multiplying by `0` kills both sides, and
  multiplying by a positive real preserves each infinity.
-/
import Mathlib

namespace RangeLoss

open Finset in
/-- Multiplying a finite sum of extended reals by a nonnegative real on the
right is the sum of the scaled terms. -/
theorem sum_mul_coe {ι : Type*} (s : Finset ι) (f : ι → EReal) {c : ℝ} (hc : 0 ≤ c) :
    (∑ i ∈ s, f i) * (c : EReal) = ∑ i ∈ s, f i * (c : EReal) := by
  classical
  have hc0 : (0 : EReal) ≤ (c : EReal) := EReal.coe_nonneg.mpr hc
  have hct : (c : EReal) ≠ ⊤ := EReal.coe_ne_top c
  induction s using Finset.induction_on with
  | empty => simp
  | insert a s ha ih =>
    rw [Finset.sum_insert ha, Finset.sum_insert ha,
      EReal.right_distrib_of_nonneg_of_ne_top hc0 hct, ih]

end RangeLoss
-- ==== Proof.LibSums.lean ====
/-
  Sums over index sets, re-indexed. A rank-3 index set is the product of its three coordinate ranges, so a sum over
  it is a triple sum; a rank-2 index set with a unit second axis is its first range; the range below `m * k` is `m`
  consecutive blocks of length `k`; and the range below `m0 * m1 * m2 * m3` is enumerated once by four mixed-radix
  digits, in any order of summation. All over an arbitrary additive commutative monoid.
-/
import Mathlib
import Idealize.ShloMosaic.Lib.ValueIdx

open scoped BigOperators
open Idealize.ShloMosaic

namespace RangeLoss

open Finset

/-- Splitting the range below `m * k` into `m` consecutive blocks of length `k`. -/
theorem sum_range_mul_block {M : Type*} [AddCommMonoid M] (g : ℕ → M) (m k : ℕ) :
    ∑ n ∈ range (m * k), g n = ∑ a ∈ range m, ∑ b ∈ range k, g (a * k + b) := by
  induction m with
  | zero => simp
  | succ m ih => rw [Nat.succ_mul, Finset.sum_range_add, ih, Finset.sum_range_succ]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  simp only [Fintype.sum_prod_type]
  rfl

/-- A sum over a rank-3 index set of a function of the coordinates' values is the
triple sum over the three ranges. -/
theorem sum_idx3_range {M : Type*} [AddCommMonoid M] {n0 n1 n2 : Nat} (F : ℕ → ℕ → ℕ → M) :
    ∑ q : (⟨3, ![n0, n1, n2]⟩ : Shape).Idx, F (q 0).val (q 1).val (q 2).val
      = ∑ a ∈ range n0, ∑ b ∈ range n1, ∑ c ∈ range n2, F a b c := by
  rw [sum_idx3]
  show ∑ a : Fin n0, ∑ b : Fin n1, ∑ c : Fin n2, F a.val b.val c.val = _
  rw [← Fin.sum_univ_eq_sum_range (fun a => ∑ b ∈ range n1, ∑ c ∈ range n2, F a b c) n0]
  refine Finset.sum_congr rfl fun a _ => ?_
  rw [← Fin.sum_univ_eq_sum_range (fun b => ∑ c ∈ range n2, F a.val b c) n1]
  refine Finset.sum_congr rfl fun b _ => ?_
  rw [← Fin.sum_univ_eq_sum_range (fun c => F a.val b.val c) n2]

/-- A sum over a rank-2 index set with a trivial second axis, of a function of the
first coordinate's value, is the sum over the range. -/
theorem sum_idx2_range {M : Type*} [AddCommMonoid M] {n : Nat} (g : ℕ → M) :
    ∑ j : (⟨2, ![n, 1]⟩ : Shape).Idx, g (j 0).val = ∑ x ∈ range n, g x := by
  rw [ValueIdx.sum_idx2]
  show ∑ a : Fin n, ∑ _b : Fin 1, g a.val = _
  rw [← Fin.sum_univ_eq_sum_range g n]
  refine Finset.sum_congr rfl fun a _ => ?_
  rw [Fin.sum_univ_one]

/-- The mixed-radix expansion of a sum over the range below `m0 * m1 * m2 * m3`, with the
last digit's sum brought next to the first. -/
theorem sum_range_digits {M : Type*} [AddCommMonoid M] (g : ℕ → M) (m0 m1 m2 m3 : ℕ) :
    ∑ x ∈ range (m0 * m1 * m2 * m3), g x
      = ∑ a ∈ range m0, ∑ c ∈ range m3, ∑ i ∈ range m1, ∑ r ∈ range m2,
          g (((m1 * a + i) * m2 + r) * m3 + c) := by
  rw [sum_range_mul_block g (m0 * m1 * m2) m3]
  rw [sum_range_mul_block (fun y => ∑ c ∈ range m3, g (y * m3 + c)) (m0 * m1) m2]
  rw [sum_range_mul_block (fun z => ∑ r ∈ range m2, ∑ c ∈ range m3, g ((z * m2 + r) * m3 + c)) m0 m1]
  refine Finset.sum_congr rfl fun a _ => ?_
  -- bring the sum over the last digit outermost, then swap it past the row sum
  rw [Finset.sum_comm (s := range m3) (t := range m1)]
  refine Finset.sum_congr rfl fun i _ => ?_
  rw [Finset.sum_comm, Nat.mul_comm a m1]

end RangeLoss
-- ==== Proof.Reindex.lean ====
/-
  The tiles enumerate the flat index once.

  A flat index below `2 * 8 * 8192 * 128` is, in exactly one way,
  `((8 * a + i) * 8192 + r) * 128 + c` with `a < 2`, `i < 8`, `r < 8192`
  and `c < 128` (mixed-radix digits).  So a sum over the flat index is the
  iterated sum over the four digits, in any order of summation.
-/
import proofs.«110617_j6150393167991_2_alg».proof.Proof.LibSums

open scoped BigOperators
open Idealize.ShloMosaic

namespace RangeLoss

open Finset

/-- Summing, over the `[2, 1, 128]` grid of (core, -, lane), over the 8 tiles of a core and
over the 8192 rows of a tile, is summing over the flat index below `2 * 8 * 8192 * 128`. -/
theorem sum_tiles {M : Type*} [AddCommMonoid M] (g : ℕ → M) :
    ∑ q : (⟨3, ![2, 1, 128]⟩ : Shape).Idx, ∑ i ∈ Finset.range 8, ∑ r : Fin 8192,
        g (((8 * (q 0).val + i) * 8192 + r.val) * 128 + (q 2).val)
      = ∑ j : (⟨2, ![16777216, 1]⟩ : Shape).Idx, g (j 0).val := by
  rw [sum_idx2_range g]
  rw [show (16777216 : ℕ) = 2 * 8 * 8192 * 128 from by norm_num]
  rw [sum_range_digits g 2 8 8192 128]
  refine (sum_idx3_range (n0 := 2) (n1 := 1) (n2 := 128)
    (fun a _ c => ∑ i ∈ Finset.range 8, ∑ r : Fin 8192,
        g (((8 * a + i) * 8192 + r.val) * 128 + c))).trans ?_
  refine Finset.sum_congr rfl fun a _ => ?_
  rw [Finset.sum_range_one]
  refine Finset.sum_congr rfl fun c _ => ?_
  refine Finset.sum_congr rfl fun i _ => ?_
  exact Fin.sum_univ_eq_sum_range (fun r => g (((8 * a + i) * 8192 + r) * 128 + c)) 8192

end RangeLoss
-- ==== Proof.Bridge.lean ====
/-
  The two results are one number. Both programs end in "sum from zero, divide by 2^24" of an array of scaled element
  losses: the reference of the [16777216,1] array of its element losses each divided by 2^24, the kernel of the
  [2,1,128] array `G` of sums of tile sums each scaled by 2^-24. Dividing by 2^24 is multiplying by 2^-24; scaling
  by a nonnegative real distributes over any sum of extended reals; the tiles enumerate the flat index once; and on
  real inputs the two programs' element losses agree (inside the range the reference's two differences vanish because
  a prediction inside the range is positive, so its logarithm is a real).
-/
import proofs.«110617_j6150393167991_2_alg».proof.Proof.Tail
import proofs.«110617_j6150393167991_2_alg».proof.Proof.Finite
import proofs.«110617_j6150393167991_2_alg».proof.Proof.Elem
import proofs.«110617_j6150393167991_2_alg».proof.Proof.LibScale
import proofs.«110617_j6150393167991_2_alg».proof.Proof.Reindex
import proofs.«110617_j6150393167991_2_alg».proof.Proof.Gen.ReferenceIdeal.Read

noncomputable section

open Idealize.ShloMosaic Idealize.ShloMosaic.TcCoe Idealize.SL.Sem Idealize.ShloMosaic.ValueIdx RangeLoss

namespace Cert.Bridge

/-! ### The reference's result, index by index -/

section Reference

open Cert.ReferenceIdeal Cert.ReferenceIdeal.Gen Cert.ReferenceIdeal.Read

/-- The reference's element loss is `relem` of the two arrays' entries. -/
theorem ref_elem (x0 x1 : (⟨S16777216x1, .f32⟩ : BufTy).Contents (Elt Ideal)) (j : S16777216x1.Idx) :
    val_main_v14 (F := Ideal) x0 x1 j = relem (x0 j) (x1 j) := by
  simp only [val_main_v14_apply, val_main_v9_apply, val_main_v13_apply, val_main_v8_apply, val_main_v12_apply,
    val_main_v10_apply, val_main_v11_apply, val_main_v7_apply, val_main_v6_apply, val_main_v2_apply, val_main_v5_apply,
    val_main_v1_apply, val_main_v4_apply, val_main_v0_apply, val_main_v3_apply, val_main_cst_apply, val_main_cst_0_apply]
  rfl

/-- The reference's result: zero plus the sum of the scaled element losses, divided by 2^24. -/
theorem ref_apply (x0 x1 : (⟨S16777216x1, .f32⟩ : BufTy).Contents (Elt Ideal)) (i : S_.Idx) :
    val_main_v18 (F := Ideal) x0 x1 i
      = Ideal.div (Ideal.ofBits .f32 0x00000000#32
          + ∑ j : S16777216x1.Idx, relem (x0 j) (x1 j) * Ideal.ofBits .f32 0x33800000#32) (Ideal.ofBits .f32 0x4B800000#32) := by
  rw [val_main_v18_apply, val_main_v17_apply, val_main_cst_3_apply, val_main_cst_2_apply]
  simp only [Ideal.hostDivf_def, Ideal.ofBits_def]
  refine congrArg (fun s => Ideal.div (Ideal.ofBits .f32 0x00000000#32 + s) (Ideal.ofBits .f32 0x4B800000#32)) (Finset.sum_congr rfl fun j _ => ?_)
  rw [val_main_v16_apply, val_main_v15_apply, val_main_cst_1_apply, ref_elem]
  simp only [Ideal.hostDivf_def, Ideal.ofBits_def]
  exact div_n _

end Reference

/-! ### The kernel's result, index by index, and the two sums -/

section Kernel

open Cert.KernelIdeal Cert.KernelIdeal.Gen Cert.KernelIdeal.Blocks Cert.KernelIdeal.Tail

variable (m : (ℓ : Loc nD τ sig) → Buf (Elt Ideal) ℓ)

/-- The kernel program's result: zero plus the sum of all of `G`, divided by 2^24. -/
theorem ker_apply (c : Dev nD) (i : S_.Idx) :
    tail (G m c) i
      = Ideal.div (Ideal.ofBits .f32 0x00000000#32 + ∑ q : S2x1x128.Idx, G m c q) (Ideal.ofBits .f32 0x4B800000#32) := by
  unfold tail
  show FloatOps.hostDivf (Host.reduceAdd (F := Ideal) (G m c) (constant (F := Ideal) S_ .f32 0x00000000#32) reducesTo_S2x1x128_S_d0_1_2 h_S_ i)
      (FloatOps.ofBits .f32 0x4B800000#32) = _
  rw [Ideal.hostDivf_def, Ideal.ofBits_def]
  refine congrArg (fun s => Ideal.div s (Ideal.ofBits .f32 0x4B800000#32)) ?_
  simp only [Host.reduceAdd, Ideal.hostReduceAdd_def]
  exact Ideal.hostReduceAdd_total reducesTo_S2x1x128_S_d0_1_2 (fun b => b.elim0) (G m c) _ i

/-- The flat element loss at an index of the [16777216,1] arrays is the kernel's element term of the two entries. -/
theorem g_at (c : Dev nD) (j : S16777216x1.Idx) :
    g m c (j 0).val = kelem (m ((c : Thread nD τ).loc main_arg0) j) (m ((c : Thread nD τ).loc main_arg1) j) := by
  have hj : (j 0).val < 16777216 := (j 0).isLt
  have e : (ix2 (⟨(j 0).val, hj⟩ : Fin 16777216) (0 : Fin 1) : S16777216x1.Idx) = j := by
    funext a
    match a with
    | ⟨0, _⟩ => rfl
    | ⟨1, _⟩ => exact Fin.ext (by have h1 : (j 1).val < 1 := (j 1).isLt; show 0 = (j 1).val; omega)
  unfold g
  rw [dif_pos hj, e]
  rfl

/-- The sum of all of `G` is the sum over the flat index of the scaled element losses. -/
theorem sum_G (c : Dev nD) :
    ∑ q : S2x1x128.Idx, G m c q
      = ∑ j : S16777216x1.Idx, kelem (m ((c : Thread nD τ).loc main_arg0) j) (m ((c : Thread nD τ).loc main_arg1) j)
          * Ideal.ofBits .f32 0x33800000#32 := by
  obtain ⟨cr, hc0, hc⟩ := inv_n_nonneg
  calc ∑ q : S2x1x128.Idx, G m c q
      = ∑ q : S2x1x128.Idx, ∑ i ∈ Finset.range 8, ∑ r : Fin 8192,
          (fun n => g m c n * (cr : EReal)) (((8 * (q 0).val + i) * 8192 + r.val) * 128 + (q 2).val) := by
        refine Finset.sum_congr rfl fun q _ => ?_
        unfold G
        refine Finset.sum_congr rfl fun i _ => ?_
        rw [hc]
        exact sum_mul_coe _ _ hc0
    _ = ∑ j : S16777216x1.Idx, (fun n => g m c n * (cr : EReal)) (j 0).val :=
        sum_tiles (fun n => g m c n * (cr : EReal))
    _ = _ := by
        refine Finset.sum_congr rfl fun j _ => ?_
        show g m c (j 0).val * (cr : EReal) = _
        rw [g_at, hc]

variable [Cert.Pre_finite_inputs.Facts]

/-- Under the precondition the kernel program's result is the reference's, as functions of the same arguments. -/
theorem result_eq (c : Dev nD)
    (hpre : Cert.Pre_finite_inputs.fn (F := Ideal) (m ((c : Thread nD τ).loc main_arg0)) (m ((c : Thread nD τ).loc main_arg1)) = fun _ => 1#1) :
    tail (G m c) = Cert.ReferenceIdeal.Read.val_main_v18 (F := Ideal) (m ((c : Thread nD τ).loc main_arg0)) (m ((c : Thread nD τ).loc main_arg1)) := by
  obtain ⟨f0, f1⟩ := Cert.Pre_finite_inputs.Finite.finite _ _ hpre
  funext i
  rw [ker_apply, ref_apply, sum_G]
  refine congrArg (fun s => Ideal.div (Ideal.ofBits .f32 0x00000000#32 + s) (Ideal.ofBits .f32 0x4B800000#32)) (Finset.sum_congr rfl fun j _ => ?_)
  obtain ⟨p, hp⟩ := f0 j
  obtain ⟨t, ht⟩ := f1 j
  rw [hp, ht, relem_eq_kelem]

end Kernel

end Cert.Bridge

end
-- ==== Proof.lean ====
/-
  A masked squared-error loss, reduced to one number two ways.

  Per sample, with prediction p and target t: the sample is "in range" when p·hi > t and p·lo < t for the two
  thresholds hi ≥ lo > 0 the programs spell. The reference replaces an in-range target by the prediction, takes
  (p − t')² + (log p − log t')², divides each by N = 2^24, sums all N of them from zero and divides by N again. The
  kernel takes zero for an in-range sample and (p − t)² + (log p − log t)² otherwise, re-lays the N samples as
  [131072,128], and on a 2 × 8 grid sums each [8192,128] tile along its rows, scales the lane sums by 2^-24 and
  adds them into a running [1,128] row that restarts at each core's first step; the row after a core's eighth step
  is that core's block of a [2,1,128] array, which the host then sums from zero and divides by N.

  Over the extended reals, on real inputs, the two agree: an in-range prediction is positive (p·lo < t < p·hi with
  lo ≤ hi fails for p ≤ 0), so its logarithm is a real and the reference's in-range term is 0 + 0; x / 2^24 is
  x · 2^-24; scaling by a nonnegative real distributes over every sum, infinities included; and the tiles list each
  flat index exactly once. The three frames are the generated ones (the reference's is its generated run with the
  result dropped), and the idealization rewrote nothing.
-/
import proofs.«110617_j6150393167991_2_alg».proof.Defs
import proofs.«110617_j6150393167991_2_alg».proof.Proof.Gen.Kernel
import proofs.«110617_j6150393167991_2_alg».proof.Proof.Gen.Kernel.Skeleton
import proofs.«110617_j6150393167991_2_alg».proof.Proof.Gen.Kernel.Launch
import proofs.«110617_j6150393167991_2_alg».proof.Proof.Gen.Kernel.Points
import proofs.«110617_j6150393167991_2_alg».proof.Proof.Gen.Kernel.Frame
import proofs.«110617_j6150393167991_2_alg».proof.Proof.Gen.KernelIdeal
import proofs.«110617_j6150393167991_2_alg».proof.Proof.Gen.KernelIdeal.Skeleton
import proofs.«110617_j6150393167991_2_alg».proof.Proof.Gen.KernelIdeal.Launch
import proofs.«110617_j6150393167991_2_alg».proof.Proof.Gen.KernelIdeal.Points
import proofs.«110617_j6150393167991_2_alg».proof.Proof.Gen.KernelIdeal.Frame
import proofs.«110617_j6150393167991_2_alg».proof.Proof.Gen.ReferenceIdeal
import proofs.«110617_j6150393167991_2_alg».proof.Proof.Gen.Pre_finite_inputs
import proofs.«110617_j6150393167991_2_alg».proof.Proof.Gen.ReferenceIdeal.Run
import proofs.«110617_j6150393167991_2_alg».proof.Proof.Gen.ReferenceIdeal.Read
import proofs.«110617_j6150393167991_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories agreeing on the arguments, the kernel program ends at the tail of `G` of the
    arguments and the reference at its composed term of the same arguments: one number under the precondition. -/
theorem algebraic : Cert.algebraic_KernelIdeal_ReferenceIdeal := by
  intro m ρ m' ρ' hpre hagree
  refine ⟨fun c => Cert.KernelIdeal.Tail.tail (Cert.KernelIdeal.Blocks.G m c), Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, (hagree c).1, (hagree c).2]
  exact (Cert.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
